-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x64x16384 : Shape := ⟨4, ![4, 64, 64, 16384]⟩
abbrev S512x16384 : Shape := ⟨2, ![512, 16384]⟩
abbrev S256x512 : Shape := ⟨2, ![256, 512]⟩
abbrev S_ : Shape := ⟨0, ![]⟩

class Facts : Prop where
  bcast_S_S4x64x64x16384 : S_.BroadcastsInDim S4x64x64x16384 (![] : Fin 0 → Fin S4x64x64x16384.rank)
  reducesTo_S4x64x64x16384_S_d0_1_2_3 : S4x64x64x16384.ReducesTo [0, 1, 2, 3] S_
  h_S_ : 0 < S_.numel
  bcast_S_S512x16384 : S_.BroadcastsInDim S512x16384 (![] : Fin 0 → Fin S512x16384.rank)
  reducesTo_S512x16384_S_d0_1 : S512x16384.ReducesTo [0, 1] S_
  bcast_S_S256x512 : S_.BroadcastsInDim S256x512 (![] : Fin 0 → Fin S256x512.rank)
  reducesTo_S256x512_S_d0_1 : S256x512.ReducesTo [0, 1] S_

variable [Facts]

def fn_part1 {F : FTy → Type} [FloatOps F] (main_v13 : IVec S_ 1) (main_v16 : IVec S256x512 1) : IVec S_ 1 :=
  let main_c_5 : IVec S_ 1 := constantI S_ 1 1#1
  let main_v17 : IVec S_ 1 := (fun x v => Host.reduce IntOp.andi x v reducesTo_S256x512_S_d0_1 h_S_) main_v16 main_c_5
  let main_v18 : IVec S_ 1 := andi main_v13 main_v17
  main_v18

def fn {F : FTy → Type} [FloatOps F] (main_arg0 : FVec F S4x64x64x16384 .f32) (main_arg1 : FVec F S512x16384 .f32) (main_arg2 : FVec F S256x512 .f32) (main_arg3 : FVec F S256x512 .f32) : IVec S_ 1 :=
  let main_v0 : FVec F S4x64x64x16384 .f32 := Host.absf main_arg0
  let main_cst : FVec F S_ .f32 := constant S_ .f32 0x7F800000#32
  let main_v1 : FVec F S4x64x64x16384 .f32 := broadcastInDim S4x64x64x16384 ![] bcast_S_S4x64x64x16384 main_cst
  let main_v2 : IVec S4x64x64x16384 1 := cmpf .olt main_v0 main_v1
  let main_c : IVec S_ 1 := constantI S_ 1 1#1
  let main_v3 : IVec S_ 1 := (fun x v => Host.reduce IntOp.andi x v reducesTo_S4x64x64x16384_S_d0_1_2_3 h_S_) main_v2 main_c
  let main_v4 : FVec F S512x16384 .f32 := Host.absf main_arg1
  let main_cst_0 : FVec F S_ .f32 := constant S_ .f32 0x7F800000#32
  let main_v5 : FVec F S512x16384 .f32 := broadcastInDim S512x16384 ![] bcast_S_S512x16384 main_cst_0
  let main_v6 : IVec S512x16384 1 := cmpf .olt main_v4 main_v5
  let main_c_1 : IVec S_ 1 := constantI S_ 1 1#1
  let main_v7 : IVec S_ 1 := (fun x v => Host.reduce IntOp.andi x v reducesTo_S512x16384_S_d0_1 h_S_) main_v6 main_c_1
  let main_v8 : IVec S_ 1 := andi main_v3 main_v7
  let main_v9 : FVec F S256x512 .f32 := Host.absf main_arg2
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S256x512 .f32 := Host.absf main_arg3
  let main_cst_4 : FVec F S_ .f32 := constant S_ .f32 0x7F800000#32
  let main_v15 : FVec F S256x512 .f32 := broadcastInDim S256x512 ![] bcast_S_S256x512 main_cst_4
  let main_v16 : IVec S256x512 1 := cmpf .olt main_v14 main_v15
  fn_part1 (F := F) main_v13 main_v16
-- ==== Kernel.lean ====
abbrev S4x64x64x16384 : Shape := ⟨4, ![4, 64, 64, 16384]⟩
abbrev S512x16384 : Shape := ⟨2, ![512, 16384]⟩
abbrev S256x512 : Shape := ⟨2, ![256, 512]⟩
abbrev S64x512 : Shape := ⟨2, ![64, 512]⟩
abbrev S64x1x512 : Shape := ⟨3, ![64, 1, 512]⟩
abbrev S4x64x64x512 : Shape := ⟨4, ![4, 64, 64, 512]⟩
abbrev S1x1x64x16384 : Shape := ⟨4, ![1, 1, 64, 16384]⟩
abbrev S1x1x512 : Shape := ⟨3, ![1, 1, 512]⟩
abbrev S1x1x64x512 : Shape := ⟨4, ![1, 1, 64, 512]⟩
abbrev S64x16384 : Shape := ⟨2, ![64, 16384]⟩
abbrev S1x512 : Shape := ⟨2, ![1, 512]⟩

abbrev nBuf : Space → Nat
  | .hbm => 9
  | .vmem => 8
  | .smem => 0
  | _ => 0

abbrev bufTy : (tb : Table) → Fin (tcTables nBuf tb) → BufTy
  | .hbm, ⟨0, _⟩ => ⟨S4x64x64x16384, .f32⟩
  | .hbm, ⟨1, _⟩ => ⟨S512x16384, .f32⟩
  | .hbm, ⟨2, _⟩ => ⟨S256x512, .f32⟩
  | .hbm, ⟨3, _⟩ => ⟨S256x512, .f32⟩
  | .hbm, ⟨4, _⟩ => ⟨S512x16384, .bf16⟩
  | .hbm, ⟨5, _⟩ => ⟨S64x512, .f32⟩
  | .hbm, ⟨6, _⟩ => ⟨S64x1x512, .f32⟩
  | .hbm, ⟨7, _⟩ => ⟨S64x512, .f32⟩
  | .hbm, ⟨8, _⟩ => ⟨S4x64x64x512, .f32⟩
  | .local _ .vmem, ⟨0, _⟩ => ⟨S1x1x64x16384, .f32⟩
  | .local _ .vmem, ⟨1, _⟩ => ⟨S1x1x64x16384, .f32⟩
  | .local _ .vmem, ⟨2, _⟩ => ⟨S512x16384, .bf16⟩
  | .local _ .vmem, ⟨3, _⟩ => ⟨S1x1x512, .f32⟩
  | .local _ .vmem, ⟨4, _⟩ => ⟨S1x1x512, .f32⟩
  | .local _ .vmem, ⟨5, _⟩ => ⟨S64x512, .f32⟩
  | .local _ .vmem, ⟨6, _⟩ => ⟨S1x1x64x512, .f32⟩
  | .local _ .vmem, ⟨7, _⟩ => ⟨S1x1x64x512, .f32⟩
  | _, _ => ⟨S4x64x64x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 64], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x64x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x16384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bitsLt_bf16_f32 : FTy.bits .bf16 < FTy.bits .f32
  slices_S256x512_S64x512_0_0 : S256x512.Slices ![0, 0] S64x512
  bcast_S64x512_S64x1x512_0_2 : S64x512.BroadcastsInDim S64x1x512 (![0, 2] : Fin 2 → Fin S64x1x512.rank)
  inb_S1x1x64x16384_S1x1x64x16384_0_0_0_0 : ∀ a, (![0, 0, 0, 0] : Fin 4 → Nat) a + S1x1x64x16384.size a ≤ S1x1x64x16384.size a
  h_S1x1x64x16384 : 0 < S1x1x64x16384.numel
  shapeCasts_S1x1x64x16384_S64x16384 : S1x1x64x16384.ShapeCasts S64x16384
  inb_S512x16384_S512x16384_0_0 : ∀ a, (![0, 0] : Fin 2 → Nat) a + S512x16384.size a ≤ S512x16384.size a
  h_S512x16384 : 0 < S512x16384.numel
  shapeCasts_S512x16384_S512x16384 : S512x16384.ShapeCasts S512x16384
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  shapeCasts_S1x512_S1x512 : S1x512.ShapeCasts S1x512
  broadcasts_S1x512_S64x512 : S1x512.Broadcasts S64x512
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S1x1x64x512_S1x1x64x512_0_0_0_0 : ∀ a, (![0, 0, 0, 0] : Fin 4 → Nat) a + S1x1x64x512.size a ≤ S1x1x64x512.size a
  h_S1x1x64x512 : 0 < S1x1x64x512.numel
  shapeCasts_S1x1x64x512_S64x512 : S1x1x64x512.ShapeCasts S64x512
  shapeCasts_S64x512_S1x1x64x512 : S64x512.ShapeCasts S1x1x64x512
  dot_S64x16384_S512x16384_S64x512_1_1_0_0_n_n_wf : DotDims.WF S64x16384 S512x16384 S64x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x64x16384.size a ≤ S4x64x64x16384.size a
  hwx0_0 : ∀ i : grid0.Coords, EltTy.bits .f32 = 32 ∨ (Rect.block (s := S4x64x64x16384) S1x1x64x16384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16384.size a ≤ S512x16384.size a
  hwx0_1 : ∀ i : grid0.Coords, EltTy.bits .bf16 = 32 ∨ (Rect.block (s := S512x16384) S512x16384.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S64x1x512.size a
  hwx0_2 : ∀ i : grid0.Coords, EltTy.bits .f32 = 32 ∨ (Rect.block (s := S64x1x512) S1x1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x512.size a ≤ S64x512.size a
  hwx0_3 : ∀ i : grid0.Coords, EltTy.bits .f32 = 32 ∨ (Rect.block (s := S64x512) S64x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x64x512.size a ≤ S4x64x64x512.size a
  hwx0_4 : ∀ i : grid0.Coords, EltTy.bits .f32 = 32 ∨ (Rect.block (s := S4x64x64x512) S1x1x64x512.size (cc0_transform_4 i) (hinb0_4 i)).WholeWords (EltTy.packing .f32)

variable [Facts₀]

def dot_S64x16384_S512x16384_S64x512_1_1_0_0_n_n : DotDims S64x16384 S512x16384 S64x512 where
  lhsContracting := [1]
  rhsContracting := [1]
  lhsNonContracting := [0]
  rhsNonContracting := [0]
  lhsBatch := []
  rhsBatch := []
  wf := dot_S64x16384_S512x16384_S64x512_1_1_0_0_n_n_wf

abbrev win0_0 : Pipeline.Window sig grid0 :=
  Pipeline.Window.ofSpec (Memref.whole main_arg0) S1x1x64x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x16384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S64x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1x64x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x64x64x16384 : Shape := ⟨4, ![4, 64, 64, 16384]⟩
abbrev S512x16384 : Shape := ⟨2, ![512, 16384]⟩
abbrev S256x512 : Shape := ⟨2, ![256, 512]⟩
abbrev S4x64x64x512 : Shape := ⟨4, ![4, 64, 64, 512]⟩
abbrev S64x512 : Shape := ⟨2, ![64, 512]⟩
abbrev S1x64x1x512 : Shape := ⟨4, ![1, 64, 1, 512]⟩
abbrev S1x1x64x512 : Shape := ⟨4, ![1, 1, 64, 512]⟩

abbrev nBuf : Space → Nat
  | .hbm => 13
  | .vmem => 0
  | .smem => 0
  | _ => 0

abbrev bufTy : (tb : Table) → Fin (tcTables nBuf tb) → BufTy
  | .hbm, ⟨0, _⟩ => ⟨S4x64x64x16384, .f32⟩
  | .hbm, ⟨1, _⟩ => ⟨S512x16384, .f32⟩
  | .hbm, ⟨2, _⟩ => ⟨S256x512, .f32⟩
  | .hbm, ⟨3, _⟩ => ⟨S256x512, .f32⟩
  | .hbm, ⟨4, _⟩ => ⟨S4x64x64x512, .f32⟩
  | .hbm, ⟨5, _⟩ => ⟨S64x512, .f32⟩
  | .hbm, ⟨6, _⟩ => ⟨S1x64x1x512, .f32⟩
  | .hbm, ⟨7, _⟩ => ⟨S4x64x64x512, .f32⟩
  | .hbm, ⟨8, _⟩ => ⟨S4x64x64x512, .f32⟩
  | .hbm, ⟨9, _⟩ => ⟨S64x512, .f32⟩
  | .hbm, ⟨10, _⟩ => ⟨S1x1x64x512, .f32⟩
  | .hbm, ⟨11, _⟩ => ⟨S4x64x64x512, .f32⟩
  | .hbm, ⟨12, _⟩ => ⟨S4x64x64x512, .f32⟩
  | _, _ => ⟨S4x64x64x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  slices_S256x512_S64x512_0_0 : S256x512.Slices ![0, 0] S64x512
  bcast_S64x512_S1x64x1x512_1_3 : S64x512.BroadcastsInDim S1x64x1x512 (![1, 3] : Fin 2 → Fin S1x64x1x512.rank)
  bcast_S1x64x1x512_S4x64x64x512_0_1_2_3 : S1x64x1x512.BroadcastsInDim S4x64x64x512 (![0, 1, 2, 3] : Fin 4 → Fin S4x64x64x512.rank)
  bcast_S64x512_S1x1x64x512_2_3 : S64x512.BroadcastsInDim S1x1x64x512 (![2, 3] : Fin 2 → Fin S1x1x64x512.rank)
  bcast_S1x1x64x512_S4x64x64x512_0_1_2_3 : S1x1x64x512.BroadcastsInDim S4x64x64x512 (![0, 1, 2, 3] : Fin 4 → Fin S4x64x64x512.rank)
  dot_S4x64x64x16384_S512x16384_S4x64x64x512_3_1_012_0_n_n_wf : DotDims.WF S4x64x64x16384 S512x16384 S4x64x64x512 [3] [1] [0, 1, 2] [0] [] []

variable [Facts₀]

def dot_S4x64x64x16384_S512x16384_S4x64x64x512_3_1_012_0_n_n : DotDims S4x64x64x16384 S512x16384 S4x64x64x512 where
  lhsContracting := [3]
  rhsContracting := [1]
  lhsNonContracting := [0, 1, 2]
  rhsNonContracting := [0]
  lhsBatch := []
  rhsBatch := []
  wf := dot_S4x64x64x16384_S512x16384_S4x64x64x512_3_1_012_0_n_n_wf

class Facts : Prop extends Facts₀ where

variable [Facts]
-- ==== Proof.Spec.lean ====
/-
  The function both programs compute, over the extended reals.

  For a batch of one-hot (or any) rows x[b, s, f, ·] of length 16384, a weight matrix W of 512 rows of that length, and
  two tables of 256 rows of length 512, the result at (b, s, f, e) is

      ( ∑ₖ x[b, s, f, k] · W[e, k] )  +  pos[s, e]  +  fmap[f, e],

  the token's projection plus the embedding of its sequence position s plus the embedding of its feature-map position f.
  Only the first 64 rows of either table are ever read (s and f range over 64 values). The two sums are grouped as
  written: first the projection with the position term, then the feature-map term.
-/
import Idealize.ShloMosaic.PureOps.Ideal
import Idealize.ShloMosaic.Lib.ValueIdx

noncomputable section

open scoped BigOperators

namespace Cert.Embed

open Idealize.ShloMosaic Idealize.ShloMosaic.ValueIdx

/-- Row r < 64 of a table of 256 rows. -/
abbrev row (r : Fin 64) : Fin 256 := ⟨r.val, Nat.lt_of_lt_of_le r.isLt (by decide)⟩

/-- One entry of the result, by its four coordinates. -/
def entry (x : FVec Ideal ⟨4, ![4, 64, 64, 16384]⟩ .f32) (W : FVec Ideal ⟨2, ![512, 16384]⟩ .f32)
    (pos fmap : FVec Ideal ⟨2, ![256, 512]⟩ .f32) (b : Fin 4) (s f : Fin 64) (e : Fin 512) : EReal :=
  (∑ k : Fin 16384, x (ix4 b s f k) * W (ix2 e k)) + pos (ix2 (row s) e) + fmap (ix2 (row f) e)

/-- The whole result array. -/
def out (x : FVec Ideal ⟨4, ![4, 64, 64, 16384]⟩ .f32) (W : FVec Ideal ⟨2, ![512, 16384]⟩ .f32)
    (pos fmap : FVec Ideal ⟨2, ![256, 512]⟩ .f32) : FVec Ideal ⟨4, ![4, 64, 64, 512]⟩ .f32 :=
  fun i => entry x W pos fmap ⟨(i 0).val, (i 0).isLt⟩ ⟨(i 1).val, (i 1).isLt⟩ ⟨(i 2).val, (i 2).isLt⟩ ⟨(i 3).val, (i 3).isLt⟩

/-- At an index given by coordinates the array is the entry. -/
theorem out_ix4 (x : FVec Ideal ⟨4, ![4, 64, 64, 16384]⟩ .f32) (W : FVec Ideal ⟨2, ![512, 16384]⟩ .f32)
    (pos fmap : FVec Ideal ⟨2, ![256, 512]⟩ .f32) (b : Fin 4) (s f : Fin 64) (e : Fin 512) :
    out x W pos fmap (ix4 b s f e) = entry x W pos fmap b s f e := rfl

end Cert.Embed

end
-- ==== Proof.RefSpec.lean ====
/-
  The reference computes the specified function.

  Its nine host operations are: the product of x with W along the length-16384 axis of both; the first 64 rows of the
  position table, spread over the batch and feature-map axes; their sum; the first 64 rows of the feature-map table,
  spread over the batch and sequence axes; and the final sum. Read at (b, s, f, e), operation by operation, that is

      ( ∑ₖ x[b, s, f, k] · W[e, k]  +  pos[s, e] )  +  fmap[f, e].
-/
import proofs.«103691_j936302871087_2_alg».proof.Proof.Gen.ReferenceIdeal.Read
import proofs.«103691_j936302871087_2_alg».proof.Proof.Spec

noncomputable section

open scoped BigOperators

namespace Cert.ReferenceIdeal.Spec

open Cert.ReferenceIdeal Cert.ReferenceIdeal.Read Idealize.ShloMosaic Idealize.ShloMosaic.ValueIdx
open Cert.Embed (row)

/-- The reference's last stage, as a function of the four arguments, is the specified array. -/
theorem result_eq (x : FVec Ideal S4x64x64x16384 .f32) (W : FVec Ideal S512x16384 .f32) (pos fmap : FVec Ideal S256x512 .f32) :
    val_main_v8 (F := Ideal) x W pos fmap = Cert.Embed.out x W pos fmap := by
  funext i
  obtain ⟨b, s, f, e, rfl⟩ : ∃ (b : Fin 4) (s : Fin 64) (f : Fin 64) (e : Fin 512), i = ix4 b s f e :=
    ⟨i 0, i 1, i 2, i 3, eq_ix4 i⟩
  rw [Cert.Embed.out_ix4, val_main_v8_apply, val_main_v4_apply, val_main_v0_apply, val_main_v3_apply, val_main_v2_apply,
    val_main_v1_apply, val_main_v7_apply, val_main_v6_apply, val_main_v5_apply]
  -- the product reads row (b, s, f) of x and row e of W
  have hl : ∀ k : Fin 16384, lidx_main_v0 (ix4 b s f e) k = ix4 b s f k := fun k => funext fun a => by
    match a with
    | ⟨0, _⟩ => rfl
    | ⟨1, _⟩ => rfl
    | ⟨2, _⟩ => rfl
    | ⟨3, _⟩ => rfl
  have hr : ∀ k : Fin 16384, ridx_main_v0 (ix4 b s f e) k = ix2 e k := fun k => funext fun a => by
    match a with
    | ⟨0, _⟩ => rfl
    | ⟨1, _⟩ => rfl
  -- the spread position rows read row s, the spread feature-map rows row f
  have hp : idx_main_v1 (idx_main_v2 (idx_main_v3 (ix4 b s f e))) = ix2 (row s) e := funext fun a => by
    match a with
    | ⟨0, _⟩ => rfl
    | ⟨1, _⟩ => rfl
  have hg : idx_main_v5 (idx_main_v6 (idx_main_v7 (ix4 b s f e))) = ix2 (row f) e := funext fun a => by
    match a with
    | ⟨0, _⟩ => rfl
    | ⟨1, _⟩ => rfl
  rw [hp, hg]
  simp only [hl, hr]
  rfl

end Cert.ReferenceIdeal.Spec

end
-- ==== Proof.Body.lean ====
/-
  What one grid step stores, entry by entry.

  A step holds a [1, 1, 64, 16384] block of x (64 rows), the whole 512-row weight matrix, one [1, 1, 512] row of the
  position table and a [64, 512] block of the feature-map table. It multiplies the 64 rows with the weight rows
  (contracting the length-16384 axis of both, into a zero accumulator), adds the one position row to every one of the
  64 result rows, adds the feature-map block, and stores the [64, 512] sum as a [1, 1, 64, 512] block. So entry
  (0, 0, f, e) of what it stores is

      ( ∑ₖ x₀[0, 0, f, k] · w[e, k] )  +  p[0, 0, e]  +  g[f, e].

  Narrowing to bf16 before the product is the identity on extended reals, and so are the reshapes that only add or
  drop axes of length one.
-/
import proofs.«103691_j936302871087_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-- The product's left operand is read at row `f` of the block: its kept axis follows the result's first coordinate. -/
theorem lhs_row (j : S64x512.Idx) (q : dot_S64x16384_S512x16384_S64x512_1_1_0_0_n_n.contr.Idx) : (dot_S64x16384_S512x16384_S64x512_1_1_0_0_n_n.lhsIdx j q 0).val = (j 0).val := by
  unfold DotDims.lhsIdx
  rw [dif_neg (show ¬(0 : Fin S64x16384.rank) ∈ dot_S64x16384_S512x16384_S64x512_1_1_0_0_n_n.lhsBatch by decide),
    dif_pos (show (0 : Fin S64x16384.rank) ∈ dot_S64x16384_S512x16384_S64x512_1_1_0_0_n_n.lhsNonContracting by decide)]
  rfl

/-- Its right operand is read at row `e` of the matrix: its kept axis follows the result's second coordinate. -/
theorem rhs_row (j : S64x512.Idx) (q : dot_S64x16384_S512x16384_S64x512_1_1_0_0_n_n.contr.Idx) : (dot_S64x16384_S512x16384_S64x512_1_1_0_0_n_n.rhsIdx j q 0).val = (j 1).val := by
  unfold DotDims.rhsIdx
  rw [dif_neg (show ¬(0 : Fin S512x16384.rank) ∈ dot_S64x16384_S512x16384_S64x512_1_1_0_0_n_n.rhsBatch by decide),
    dif_pos (show (0 : Fin S512x16384.rank) ∈ dot_S64x16384_S512x16384_S64x512_1_1_0_0_n_n.rhsNonContracting by decide)]
  rfl

/-- The product of a [64, 16384] block with a [512, 16384] matrix along their length-16384 axes, into a zero
    accumulator, at (f, e): the sum over k of row f of the block times row e of the matrix. -/
theorem matmul_at (lhs : FVec Ideal S64x16384 .bf16) (rhs : FVec Ideal S512x16384 .bf16) (f : Fin 64) (e : Fin 512) :
    matmul dot_S64x16384_S512x16384_S64x512_1_1_0_0_n_n none lhs rhs (constant (F := Ideal) S64x512 .f32 0x00000000#32) (ix2 f e)
      = ∑ k : Fin 16384, lhs (ix2 f k) * rhs (ix2 e k) := by
  show FloatOps.matmul dot_S64x16384_S512x16384_S64x512_1_1_0_0_n_n none lhs rhs (constant (F := Ideal) S64x512 .f32 0x00000000#32) (ix2 f e) = _
  rw [Ideal.matmul_constant_zero_apply,
    ← Equiv.sum_comp (contrEquiv1 dot_S64x16384_S512x16384_S64x512_1_1_0_0_n_n 16384 rfl rfl).symm]
  refine Finset.sum_congr rfl fun k _ => ?_
  have hk := contrEquiv1_symm_val dot_S64x16384_S512x16384_S64x512_1_1_0_0_n_n 16384 rfl rfl k
  have el : dot_S64x16384_S512x16384_S64x512_1_1_0_0_n_n.lhsIdx (ix2 f e) ((contrEquiv1 dot_S64x16384_S512x16384_S64x512_1_1_0_0_n_n 16384 rfl rfl).symm k) = ix2 f k :=
    funext fun a => Fin.ext (by
      match a with
      | ⟨0, _⟩ => exact lhs_row _ _
      | ⟨1, _⟩ => exact (dot_S64x16384_S512x16384_S64x512_1_1_0_0_n_n.lhsIdx_val_of_single rfl _ _).trans hk)
  have er : dot_S64x16384_S512x16384_S64x512_1_1_0_0_n_n.rhsIdx (ix2 f e) ((contrEquiv1 dot_S64x16384_S512x16384_S64x512_1_1_0_0_n_n 16384 rfl rfl).symm k) = ix2 e k :=
    funext fun a => Fin.ext (by
      match a with
      | ⟨0, _⟩ => exact rhs_row _ _
      | ⟨1, _⟩ => exact (dot_S64x16384_S512x16384_S64x512_1_1_0_0_n_n.rhsIdx_val_of_single rfl _ _).trans hk)
  rw [el, er]

/-- Entry (0, 0, f, e) of the block one step stores, from the four blocks it loads: the product of row f of the x block
    with row e of the weight matrix, plus entry e of the position row, plus entry (f, e) of the feature-map block. -/
theorem pay_at (x0 : Vec Ideal S1x1x64x16384 .f32) (x1 : Vec Ideal S512x16384 .bf16) (x2 : Vec Ideal S1x1x512 .f32)
    (x3 : Vec Ideal S64x512 .f32) (u v : Fin 1) (f : Fin 64) (e : Fin 512) :
    k0_pay1 (F := Ideal) x0 x1 x2 x3 (ix4 u v f e)
      = (∑ k : Fin 16384, x0 (ix4 (0 : Fin 1) (0 : Fin 1) f k) * x1 (ix2 e k))
          + x2 (ix3 (0 : Fin 1) (0 : Fin 1) e) + x3 (ix2 f e) := by
  unfold k0_pay1
  -- the [64, 512] sum stored as a [1, 1, 64, 512] block: same row-major position
  refine (shapeCast_apply _ shapeCasts_S64x512_S1x1x64x512 (ix4 u v f e) (ix2 f e) ?_).trans ?_
  · rw [Shape.rowMajor_val_two, Shape.rowMajor_val_four]
    show f.val * 512 + e.val = ((u.val * 1 + v.val) * 64 + f.val) * 512 + e.val
    have hu : u.val = 0 := by omega
    have hv : v.val = 0 := by omega
    omega
  rw [addf_apply, addf_apply, matmul_at, shapeCast_self x3]
  -- row f of the x block, seen as a [64, 16384] matrix and narrowed (the identity on extended reals)
  have hx : ∀ k : Fin 16384,
      (truncf .bf16 (shapeCast S64x16384 x0 shapeCasts_S1x1x64x16384_S64x16384) bitsLt_bf16_f32 : FVec Ideal S64x16384 .bf16) (ix2 f k)
        = x0 (ix4 (0 : Fin 1) (0 : Fin 1) f k) := fun k =>
    shapeCast_apply x0 shapeCasts_S1x1x64x16384_S64x16384 (ix2 f k) (ix4 (0 : Fin 1) (0 : Fin 1) f k) (by
      rw [Shape.rowMajor_val_four, Shape.rowMajor_val_two]
      show ((0 * 1 + 0) * 64 + f.val) * 16384 + k.val = f.val * 16384 + k.val
      omega)
  -- the one position row under every one of the 64 rows
  have hp : broadcastTo S64x512 (shapeCast S1x512 (shapeCast S1x512 x2 shapeCasts_S1x1x512_S1x512) shapeCasts_S1x512_S1x512)
      broadcasts_S1x512_S64x512 (ix2 f e) = x2 (ix3 (0 : Fin 1) (0 : Fin 1) e) := by
    rw [shapeCast_self]
    exact (broadcastTo_1b_ab_apply _ broadcasts_S1x512_S64x512 f e).trans
      (shapeCast_1ab_ab_apply x2 shapeCasts_S1x1x512_S1x512 (0 : Fin 1) e)
  rw [hp, shapeCast_self x1]
  exact congrArg (fun t => t + x2 (ix3 (0 : Fin 1) (0 : Fin 1) e) + x3 (ix2 f e))
    (Finset.sum_congr rfl fun k _ => by rw [hx k])

end Cert.KernelIdeal.Body

end
-- ==== Proof.Staged.lean ====
/-
  What the grid finds in its five arrays, and what each step's blocks are.

  Before the grid starts, the host narrows the weight matrix (the identity on extended reals), cuts the first 64 rows
  out of each of the two 256-row tables, and gives the position table a middle axis of length one, [64, 512] to
  [64, 1, 512]. So the arrays the steps read are x itself, W itself, pos[s, e] at (s, 0, e) and fmap[f, e] at (f, e),
  for s, f < 64.

  Step (b, s) of the 4 × 64 grid takes block (b, s, 0, 0) of x in blocks of [1, 1, 64, 16384] (rows x[b, s, ·, ·]), the
  whole weight matrix, block (s, 0, 0) of the position array in blocks of [1, 1, 512] (the row pos[s, ·]), and the whole
  [64, 512] feature-map array. An entry of a block sits in its array, on each axis, at block index × block size + its
  coordinate in the block.
-/
import proofs.«103691_j936302871087_2_alg».proof.Proof.Gen.KernelIdeal.Frame
import proofs.«103691_j936302871087_2_alg».proof.Proof.Spec
import Idealize.ShloMosaic.Lib.StableHlo.Run
import Idealize.ShloMosaic.Lib.Pipeline.Value
import Idealize.ShloMosaic.Lib.ValueIdx

noncomputable section

namespace Cert.KernelIdeal.Staged

open Cert.KernelIdeal Cert.KernelIdeal.Gen Idealize.ShloMosaic Idealize.ShloMosaic.TcCoe Idealize.SL.Sem
open Idealize.ShloMosaic.StableHlo Idealize.ShloMosaic.ValueIdx
open Cert.Embed (row)

variable (m : (ℓ : Loc nD τ sig) → Buf (Elt Ideal) ℓ)

/-! ## The arrays as the grid finds them -/

/-- The narrowed weight matrix is the weight matrix. -/
theorem weights (c : Dev nD) :
    (V m c main_v0 : S512x16384.Idx → EReal) = (m ((c : Thread nD τ).loc main_arg1) : S512x16384.Idx → EReal) := by
  dsimp only [V, hostOps0]; after_results; rfl

/-- The position array at (s, 0, e) is the position table at row s < 64, column e. -/
theorem pos_at (c : Dev nD) (s : Fin 64) (u : Fin 1) (e : Fin 512) :
    (V m c main_v2 : S64x1x512.Idx → EReal) (ix3 s u e)
      = (m ((c : Thread nD τ).loc main_arg2) : S256x512.Idx → EReal) (ix2 (row s) e) := by
  have hV : (V m c main_v2 : S64x1x512.Idx → EReal)
      = broadcastInDim S64x1x512 ![0, 2] bcast_S64x512_S64x1x512_0_2
          (extractStridedSlice S64x512 ![0, 0] (m ((c : Thread nD τ).loc main_arg2) : S256x512.Idx → EReal)
            slices_S256x512_S64x512_0_0) := by
    dsimp only [V, hostOps0]; after_results
  rw [hV]
  refine (broadcastInDim_apply _ bcast_S64x512_S64x1x512_0_2 _ (ix3 s u e) (ix2 s e) (fun a => ?_)).trans ?_
  · match a with
    | ⟨0, _⟩ => show s.val = if (64 : Nat) = 1 then 0 else s.val; rw [if_neg (by decide)]
    | ⟨1, _⟩ => show e.val = if (512 : Nat) = 1 then 0 else e.val; rw [if_neg (by decide)]
  exact extractStridedSlice_apply ![0, 0] _ slices_S256x512_S64x512_0_0 (ix2 s e) (ix2 (row s) e) (fun a =>
    match a with
    | ⟨0, _⟩ => by show s.val = 0 + s.val; omega
    | ⟨1, _⟩ => by show e.val = 0 + e.val; omega)

/-- The feature-map array at (f, e) is the feature-map table at row f < 64, column e. -/
theorem fmap_at (c : Dev nD) (f : Fin 64) (e : Fin 512) :
    (V m c main_v3 : S64x512.Idx → EReal) (ix2 f e)
      = (m ((c : Thread nD τ).loc main_arg3) : S256x512.Idx → EReal) (ix2 (row f) e) := by
  have hV : (V m c main_v3 : S64x512.Idx → EReal)
      = extractStridedSlice S64x512 ![0, 0] (m ((c : Thread nD τ).loc main_arg3) : S256x512.Idx → EReal)
          slices_S256x512_S64x512_0_0 := by
    dsimp only [V, hostOps0]; after_results
  rw [hV]
  exact extractStridedSlice_apply ![0, 0] _ slices_S256x512_S64x512_0_0 (ix2 f e) (ix2 (row f) e) (fun a =>
    match a with
    | ⟨0, _⟩ => by show f.val = 0 + f.val; omega
    | ⟨1, _⟩ => by show e.val = 0 + e.val; omega)

/-! ## The blocks of a step -/

/-- Row f of the x block of a step is row (b, s, f) of x, where (b, s, 0, 0) is the step's block index. -/
theorem x_block (c : Dev nD) (t : Fin cfg0.N) (b : Fin 4) (s : Fin 64)
    (h0 : win0_0.index t 0 = b.val) (h1 : win0_0.index t 1 = s.val) (h2 : win0_0.index t 2 = 0) (h3 : win0_0.index t 3 = 0)
    (u v : Fin 1) (f : Fin 64) (k : Fin 16384) :
    (iblk m c 0 t : Vec Ideal S1x1x64x16384 .f32) (ix4 u v f k)
      = (m ((c : Thread nD τ).loc main_arg0) : S4x64x64x16384.Idx → EReal) (ix4 b s f k) := by
  unfold iblk
  rw [View.read_apply]
  show V m c main_arg0 _ = m ((c : Thread nD τ).loc main_arg0) _
  rw [V_main_arg0]
  refine congrArg _ (funext fun a => Fin.ext ?_)
  have hu : u.val = 0 := by omega
  have hv : v.val = 0 := by omega
  match a with
  | ⟨0, _⟩ => show win0_0.index t 0 * 1 + 1 * u.val = b.val; omega
  | ⟨1, _⟩ => show win0_0.index t 1 * 1 + 1 * v.val = s.val; omega
  | ⟨2, _⟩ => show win0_0.index t 2 * 64 + 1 * f.val = f.val; omega
  | ⟨3, _⟩ => show win0_0.index t 3 * 16384 + 1 * k.val = k.val; omega

/-- The weight block of a step is the whole weight matrix. -/
theorem w_block (c : Dev nD) (t : Fin cfg0.N) (h0 : win0_1.index t 0 = 0) (h1 : win0_1.index t 1 = 0)
    (e : Fin 512) (k : Fin 16384) :
    (iblk m c 1 t : Vec Ideal S512x16384 .bf16) (ix2 e k)
      = (m ((c : Thread nD τ).loc main_arg1) : S512x16384.Idx → EReal) (ix2 e k) := by
  unfold iblk
  rw [View.read_apply]
  show (V m c main_v0 : S512x16384.Idx → EReal) _ = m ((c : Thread nD τ).loc main_arg1) _
  rw [weights]
  refine congrArg _ (funext fun a => Fin.ext ?_)
  match a with
  | ⟨0, _⟩ => show win0_1.index t 0 * 512 + 1 * e.val = e.val; omega
  | ⟨1, _⟩ => show win0_1.index t 1 * 16384 + 1 * k.val = k.val; omega

/-- The position block of a step is row s < 64 of the position table, where (s, 0, 0) is the step's block index. -/
theorem p_block (c : Dev nD) (t : Fin cfg0.N) (s : Fin 64)
    (h0 : win0_2.index t 0 = s.val) (h1 : win0_2.index t 1 = 0) (h2 : win0_2.index t 2 = 0)
    (u v : Fin 1) (e : Fin 512) :
    (iblk m c 2 t : Vec Ideal S1x1x512 .f32) (ix3 u v e)
      = (m ((c : Thread nD τ).loc main_arg2) : S256x512.Idx → EReal) (ix2 (row s) e) := by
  unfold iblk
  rw [View.read_apply]
  show (V m c main_v2 : S64x1x512.Idx → EReal) (((cfg0.win 2).blk t).view.emb (ix3 u v e)) = _
  have he : ((cfg0.win 2).blk t).view.emb (ix3 u v e) = ix3 s (0 : Fin 1) e := funext fun a => Fin.ext (by
    have hu : u.val = 0 := by omega
    have hv : v.val = 0 := by omega
    match a with
    | ⟨0, _⟩ => show win0_2.index t 0 * 1 + 1 * u.val = s.val; omega
    | ⟨1, _⟩ => show win0_2.index t 1 * 1 + 1 * v.val = 0; omega
    | ⟨2, _⟩ => show win0_2.index t 2 * 512 + 1 * e.val = e.val; omega)
  rw [he]
  exact pos_at m c s 0 e

/-- The feature-map block of a step is the first 64 rows of the feature-map table. -/
theorem g_block (c : Dev nD) (t : Fin cfg0.N) (h0 : win0_3.index t 0 = 0) (h1 : win0_3.index t 1 = 0)
    (f : Fin 64) (e : Fin 512) :
    (iblk m c 3 t : Vec Ideal S64x512 .f32) (ix2 f e)
      = (m ((c : Thread nD τ).loc main_arg3) : S256x512.Idx → EReal) (ix2 (row f) e) := by
  unfold iblk
  rw [View.read_apply]
  show (V m c main_v3 : S64x512.Idx → EReal) (((cfg0.win 3).blk t).view.emb (ix2 f e)) = _
  have he : ((cfg0.win 3).blk t).view.emb (ix2 f e) = ix2 f e := funext fun a => Fin.ext (by
    match a with
    | ⟨0, _⟩ => show win0_3.index t 0 * 64 + 1 * f.val = f.val; omega
    | ⟨1, _⟩ => show win0_3.index t 1 * 512 + 1 * e.val = e.val; omega)
  rw [he]
  exact fmap_at m c f e

end Cert.KernelIdeal.Staged

end
-- ==== Proof.Blocks.lean ====
/-
  From the steps' blocks to the whole result array.

  The grid has 4 × 64 = 256 steps; step t has block index (t / 64, t % 64, 0, 0) for x and for the result, (t % 64, 0, 0)
  for the position array, and (0, 0) for the weight matrix and the feature-map array. What step t writes back is block
  (b, s, 0, 0) = (t / 64, t % 64, 0, 0) of the specified array: its entry (0, 0, f, e) is

      ( ∑ₖ x[b, s, f, k] · W[e, k] )  +  pos[s, e]  +  fmap[f, e],

  which is the specified entry (b, s, f, e). The result's [1, 1, 64, 512] blocks tile the [4, 64, 64, 512] array — index
  (b, s, f, e) lies in the block of step 64 b + s — so after the run the array is the specified one.
-/
import proofs.«103691_j936302871087_2_alg».proof.Proof.Gen.KernelIdeal.Value
import proofs.«103691_j936302871087_2_alg».proof.Proof.Spec
import proofs.«103691_j936302871087_2_alg».proof.Proof.Body
import proofs.«103691_j936302871087_2_alg».proof.Proof.Staged

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The specified array of the four arguments as launched. -/
abbrev result (c : Dev nD) : Buf (Elt Ideal) ((c : Thread nD τ).loc main_v4) :=
  Cert.Embed.out (m ((c : Thread nD τ).loc main_arg0)) (m ((c : Thread nD τ).loc main_arg1))
    (m ((c : Thread nD τ).loc main_arg2)) (m ((c : Thread nD τ).loc main_arg3))

theorem zero4 : (![0, 0, 0, 0] : Fin 4 → Nat) = fun _ => 0 := funext fun a => by fin_cases a <;> rfl
theorem zero3 : (![0, 0, 0] : Fin 3 → Nat) = fun _ => 0 := funext fun a => by fin_cases a <;> rfl
theorem zero2 : (![0, 0] : Fin 2 → Nat) = fun _ => 0 := funext fun a => by fin_cases a <;> rfl

/-- The block indices of every window at every step, decided over the 256 steps. -/
theorem steps : ∀ t : Fin cfg0.N,
    win0_4.index t 0 = t.val / 64 ∧ win0_4.index t 1 = t.val % 64 ∧ win0_4.index t 2 = 0 ∧ win0_4.index t 3 = 0
    ∧ win0_0.index t 0 = t.val / 64 ∧ win0_0.index t 1 = t.val % 64 ∧ win0_0.index t 2 = 0 ∧ win0_0.index t 3 = 0
    ∧ win0_1.index t 0 = 0 ∧ win0_1.index t 1 = 0
    ∧ win0_2.index t 0 = t.val % 64 ∧ win0_2.index t 1 = 0 ∧ win0_2.index t 2 = 0
    ∧ win0_3.index t 0 = 0 ∧ win0_3.index t 1 = 0 :=
  (by decide +kernel : ∀ t : Fin grid0.N, _)

/-- What step t writes back is its block of the specified array. -/
theorem flushed_eq (c : Dev nD) (t : Fin cfg0.N) :
    (dats m 0 c).flushed 4 t = ((cfg0.win 4).blk t).view.read (Elt Ideal) (result m c) := by
  rw [Cert.KernelIdeal.Value.flushed4]
  unfold out0_4
  rw [View.canon_unit_zero zero4]
  simp only [View.ld_unit_zero (S := S1x1x64x16384) zero4, View.ld_unit_zero (S := S512x16384) zero2,
    View.ld_unit_zero (S := S1x1x512) zero3, View.ld_unit_zero (S := S64x512) zero2]
  obtain ⟨a0, a1, a2, a3, x0, x1, x2, x3, w0, w1, p0, p1, p2, g0, g1⟩ := steps t
  have hN : t.val < 256 := Nat.lt_of_lt_of_eq t.isLt (show cfg0.N = 256 from N_0)
  obtain ⟨b, hb⟩ : ∃ b : Fin 4, b.val = t.val / 64 := ⟨⟨t.val / 64, by omega⟩, rfl⟩
  obtain ⟨s, hs⟩ : ∃ s : Fin 64, s.val = t.val % 64 := ⟨⟨t.val % 64, by omega⟩, rfl⟩
  funext j
  -- the entry's coordinates in the block
  obtain ⟨u, hu⟩ : ∃ u : Fin 1, u.val = (j 0).val := ⟨⟨(j 0).val, (j 0).isLt⟩, rfl⟩
  obtain ⟨v, hv⟩ : ∃ v : Fin 1, v.val = (j 1).val := ⟨⟨(j 1).val, (j 1).isLt⟩, rfl⟩
  obtain ⟨f, hf⟩ : ∃ f : Fin 64, f.val = (j 2).val := ⟨⟨(j 2).val, (j 2).isLt⟩, rfl⟩
  obtain ⟨e, he⟩ : ∃ e : Fin 512, e.val = (j 3).val := ⟨⟨(j 3).val, (j 3).isLt⟩, rfl⟩
  rw [View.read_apply]
  show k0_pay1 (F := Ideal) (iblk m c 0 t) (iblk m c 1 t) (iblk m c 2 t) (iblk m c 3 t)
      ((cfg0.win 4).xinj (grid0.coords t) j) = result m c (((cfg0.win 4).blk t).view.emb j)
  -- its place in the block, and in the array: block index × block size + the coordinate in the block
  have hblk : (cfg0.win 4).xinj (grid0.coords t) j = ix4 u v f e := funext fun a => Fin.ext (by
    match a with
    | ⟨0, _⟩ => exact hu.symm
    | ⟨1, _⟩ => exact hv.symm
    | ⟨2, _⟩ => exact hf.symm
    | ⟨3, _⟩ => exact he.symm)
  have harr : ((cfg0.win 4).blk t).view.emb j = ix4 b s f e := funext fun a => Fin.ext (by
    have hu0 : u.val = 0 := by omega
    have hv0 : v.val = 0 := by omega
    match a with
    | ⟨0, _⟩ => show win0_4.index t 0 * 1 + 1 * (j 0).val = b.val; omega
    | ⟨1, _⟩ => show win0_4.index t 1 * 1 + 1 * (j 1).val = s.val; omega
    | ⟨2, _⟩ => show win0_4.index t 2 * 64 + 1 * (j 2).val = f.val; omega
    | ⟨3, _⟩ => show win0_4.index t 3 * 512 + 1 * (j 3).val = e.val; omega)
  rw [hblk, harr]
  refine (Body.pay_at (iblk m c 0 t) (iblk m c 1 t) (iblk m c 2 t) (iblk m c 3 t) u v f e).trans ?_
  -- the four blocks are x[b, s, ·, ·], W, pos[s, ·] and fmap[·, ·]
  have hx : ∀ k : Fin 16384, (iblk m c 0 t : Vec Ideal S1x1x64x16384 .f32) (ix4 (0 : Fin 1) (0 : Fin 1) f k)
      = (m ((c : Thread nD τ).loc main_arg0) : S4x64x64x16384.Idx → EReal) (ix4 b s f k) := fun k =>
    Staged.x_block m c t b s (by omega) (by omega) x2 x3 0 0 f k
  have hw : ∀ k : Fin 16384, (iblk m c 1 t : Vec Ideal S512x16384 .bf16) (ix2 e k)
      = (m ((c : Thread nD τ).loc main_arg1) : S512x16384.Idx → EReal) (ix2 e k) := fun k =>
    Staged.w_block m c t w0 w1 e k
  simp only [hx, hw]
  rw [Staged.p_block m c t s (by omega) p1 p2, Staged.g_block m c t g0 g1]
  rfl

/-- An index of the result array is in step t's block iff each coordinate is in the block's range on its axis. -/
theorem mem_blk (t : Fin cfg0.N) (i : S4x64x64x512.Idx) :
    i ∈ ((cfg0.win 4).blk t).view.set ↔ ∀ a : Fin 4, win0_4.index t a * S1x1x64x512.size a ≤ (i a).val
      ∧ (i a).val < win0_4.index t a * S1x1x64x512.size a + S1x1x64x512.size a := by
  show i ∈ ((View.whole main_v4).slice (win0_4.rect t)).set ↔ _
  rw [View.set_slice_whole, Rect.mem_set_unit]
  exact Iff.rfl

/-- Index (b, s, f, e) lies in the block of step 64 b + s. -/
theorem cover (i : S4x64x64x512.Idx) :
    ∃ t : Fin cfg0.N, (cfg0.win 4).flush t = true ∧ i ∈ ((cfg0.win 4).blk t).view.set := by
  have h0 : (i 0).val < 4 := (i 0).isLt
  have h1 : (i 1).val < 64 := (i 1).isLt
  have h2 : (i 2).val < 64 := (i 2).isLt
  have h3 : (i 3).val < 512 := (i 3).isLt
  have hN : cfg0.N = 256 := N_0
  obtain ⟨t, ht⟩ : ∃ t : Fin cfg0.N, t.val = (i 0).val * 64 + (i 1).val :=
    ⟨⟨(i 0).val * 64 + (i 1).val, by rw [hN]; omega⟩, rfl⟩
  obtain ⟨a0, a1, a2, a3, -⟩ := steps t
  refine ⟨t, flush0_4 t, ?_⟩
  rw [mem_blk]
  intro a
  match a with
  | ⟨0, _⟩ => show win0_4.index t 0 * 1 ≤ (i 0).val ∧ (i 0).val < win0_4.index t 0 * 1 + 1; omega
  | ⟨1, _⟩ => show win0_4.index t 1 * 1 ≤ (i 1).val ∧ (i 1).val < win0_4.index t 1 * 1 + 1; omega
  | ⟨2, _⟩ => show win0_4.index t 2 * 64 ≤ (i 2).val ∧ (i 2).val < win0_4.index t 2 * 64 + 64; omega
  | ⟨3, _⟩ => show win0_4.index t 3 * 512 ≤ (i 3).val ∧ (i 3).val < win0_4.index t 3 * 512 + 512; omega

/-- After the run the result array is the specified array. -/
theorem final (c : Dev nD) : (dats m 0 c).arrAt 4 cfg0.N = result m c :=
  (dats m 0 c).arrAt_eq_of_cover 4 (result m c) (fun t _ => flushed_eq m c t) cover

/-- The run: the result array ends at the specified array of the arguments, the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.KernelIdeal.Blocks

end
-- ==== Proof.lean ====
/-
  Token projection plus two positional embeddings: the kernel against its reference, over the extended reals.

  Both programs compute, for x of shape [4, 64, 64, 16384], W of shape [512, 16384] and two tables of shape [256, 512],

      out[b, s, f, e] = ( ∑ₖ x[b, s, f, k] · W[e, k]  +  pos[s, e] )  +  fmap[f, e]        (Proof/Spec.lean).

  The reference does it with one product over the whole batch and two spread additions (Proof/RefSpec.lean). The kernel
  runs a 4 × 64 grid; step (b, s) multiplies the 64 rows x[b, s, ·, ·] with the weight rows, adds the one row pos[s, ·] to
  each of the 64 result rows and adds fmap[·, ·] (Proof/Body.lean: what a step stores; Proof/Staged.lean: what its blocks
  are), and its [1, 1, 64, 512] blocks tile the result (Proof/Blocks.lean). Narrowing the operands of the product to bf16
  is the identity on extended reals, the two sums over k range over the same 16384 products, and the additions are
  grouped alike on both sides, so no algebraic law beyond re-indexing the sum is needed and the inputs' finiteness is
  not used. The idealization rewrote nothing, so there is nothing to preserve.

  The two kernels' frames are the generated ones; the reference's frame is its generated run with the result dropped.
-/
import proofs.«103691_j936302871087_2_alg».proof.Defs
import proofs.«103691_j936302871087_2_alg».proof.Proof.Gen.Kernel
import proofs.«103691_j936302871087_2_alg».proof.Proof.Gen.Kernel.Skeleton
import proofs.«103691_j936302871087_2_alg».proof.Proof.Gen.Kernel.Launch
import proofs.«103691_j936302871087_2_alg».proof.Proof.Gen.Kernel.Points
import proofs.«103691_j936302871087_2_alg».proof.Proof.Gen.Kernel.Frame
import proofs.«103691_j936302871087_2_alg».proof.Proof.Gen.KernelIdeal
import proofs.«103691_j936302871087_2_alg».proof.Proof.Gen.KernelIdeal.Skeleton
import proofs.«103691_j936302871087_2_alg».proof.Proof.Gen.KernelIdeal.Launch
import proofs.«103691_j936302871087_2_alg».proof.Proof.Gen.KernelIdeal.Points
import proofs.«103691_j936302871087_2_alg».proof.Proof.Gen.KernelIdeal.Frame
import proofs.«103691_j936302871087_2_alg».proof.Proof.Gen.ReferenceIdeal
import proofs.«103691_j936302871087_2_alg».proof.Proof.Gen.Pre_finite_inputs
import proofs.«103691_j936302871087_2_alg».proof.Proof.Gen.KernelIdeal.Value
import proofs.«103691_j936302871087_2_alg».proof.Proof.Gen.ReferenceIdeal.Run
import proofs.«103691_j936302871087_2_alg».proof.Proof.Gen.ReferenceIdeal.Read
import proofs.«103691_j936302871087_2_alg».proof.Proof.RefSpec
import proofs.«103691_j936302871087_2_alg».proof.Proof.Blocks
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- From memories that agree on the four arguments, the kernel's result array and the reference's both end at the
    specified array of those arguments. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.Spec.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
